-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384 : Shape := ⟨1, ![16384]⟩
abbrev S8x512x512 : Shape := ⟨3, ![8, 512, 512]⟩
abbrev S8x512 : Shape := ⟨2, ![8, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S8x512x512 : S_.BroadcastsInDim S8x512x512 (![] : Fin 0 → Fin S8x512x512.rank)
  reducesTo_S8x512x512_S_d0_1_2 : S8x512x512.ReducesTo [0, 1, 2] S_
  bcast_S_S8x512 : S_.BroadcastsInDim S8x512 (![] : Fin 0 → Fin S8x512.rank)
  reducesTo_S8x512_S_d0_1 : S8x512.ReducesTo [0, 1] S_

variable [Facts]

def fn {F : FTy → Type} [FloatOps F] (main_arg0 : FVec F S16384x512 .f32) (main_arg1 : IVec S16384 32) (main_arg2 : FVec F S8x512x512 .f32) (main_arg3 : FVec F S8x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S8x512x512 .f32 := Host.absf main_arg2
  let main_cst_0 : FVec F S_ .f32 := constant S_ .f32 0x7F800000#32
  let main_v5 : FVec F S8x512x512 .f32 := broadcastInDim S8x512x512 ![] bcast_S_S8x512x512 main_cst_0
  let main_v6 : IVec S8x512x512 1 := cmpf .olt main_v4 main_v5
  let main_c_1 : IVec S_ 1 := constantI S_ 1 1#1
  let main_v7 : IVec S_ 1 := (fun x v => Host.reduce IntOp.andi x v reducesTo_S8x512x512_S_d0_1_2 h_S_) main_v6 main_c_1
  let main_v8 : IVec S_ 1 := andi main_v3 main_v7
  let main_v9 : FVec F S8x512 .f32 := Host.absf main_arg3
  let main_cst_2 : FVec F S_ .f32 := constant S_ .f32 0x7F800000#32
  let main_v10 : FVec F S8x512 .f32 := broadcastInDim S8x512 ![] bcast_S_S8x512 main_cst_2
  let main_v11 : IVec S8x512 1 := cmpf .olt main_v9 main_v10
  let main_c_3 : IVec S_ 1 := constantI S_ 1 1#1
  let main_v12 : IVec S_ 1 := (fun x v => Host.reduce IntOp.andi x v reducesTo_S8x512_S_d0_1 h_S_) main_v11 main_c_3
  let main_v13 : IVec S_ 1 := andi main_v8 main_v12
  main_v13
-- ==== Kernel.lean ====
abbrev S16384x512 : Shape := ⟨2, ![16384, 512]⟩
abbrev S16384 : Shape := ⟨1, ![16384]⟩
abbrev S8x512x512 : Shape := ⟨3, ![8, 512, 512]⟩
abbrev S8x512 : Shape := ⟨2, ![8, 512]⟩
abbrev S16384x1 : Shape := ⟨2, ![16384, 1]⟩
abbrev S8x1x512 : Shape := ⟨3, ![8, 1, 512]⟩
abbrev S2048x512 : Shape := ⟨2, ![2048, 512]⟩
abbrev S2048x1 : Shape := ⟨2, ![2048, 1]⟩
abbrev S1x512x512 : Shape := ⟨3, ![1, 512, 512]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 9
  | .vmem => 9
  | .smem => 0
  | _ => 0

abbrev bufTy : (tb : Table) → Fin (tcTables nBuf tb) → BufTy
  | .hbm, ⟨0, _⟩ => ⟨S16384x512, .f32⟩
  | .hbm, ⟨1, _⟩ => ⟨S16384, .i32⟩
  | .hbm, ⟨2, _⟩ => ⟨S8x512x512, .f32⟩
  | .hbm, ⟨3, _⟩ => ⟨S8x512, .f32⟩
  | .hbm, ⟨4, _⟩ => ⟨S16384x1, .i32⟩
  | .hbm, ⟨5, _⟩ => ⟨S16384x512, .bf16⟩
  | .hbm, ⟨6, _⟩ => ⟨S8x512x512, .bf16⟩
  | .hbm, ⟨7, _⟩ => ⟨S8x1x512, .f32⟩
  | .hbm, ⟨8, _⟩ => ⟨S16384x512, .f32⟩
  | .local _ .vmem, ⟨0, _⟩ => ⟨S2048x512, .bf16⟩
  | .local _ .vmem, ⟨1, _⟩ => ⟨S2048x512, .bf16⟩
  | .local _ .vmem, ⟨2, _⟩ => ⟨S2048x1, .i32⟩
  | .local _ .vmem, ⟨3, _⟩ => ⟨S2048x1, .i32⟩
  | .local _ .vmem, ⟨4, _⟩ => ⟨S8x512x512, .bf16⟩
  | .local _ .vmem, ⟨5, _⟩ => ⟨S8x1x512, .f32⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 8], ![false, false]⟩

def k0_off1 (i : grid0.Coords) : Fin 3 → Nat :=
  let arg1 : BitVec 32 := BitVec.ofNat 32 (i 1).val
  let v14 : Index := Scalar.indexCast arg1
  let c0_4 : Index := 0#32
  let c0_5 : Index := 0#32
  ![v14.toNat, 0, 0]
def k0_off2 (i : grid0.Coords) : Fin 3 → Nat :=
  let arg1 : BitVec 32 := BitVec.ofNat 32 (i 1).val
  let v18 : Index := Scalar.indexCast arg1
  let c0_6 : Index := 0#32
  let c0_7 : Index := 0#32
  ![v18.toNat, 0, 0]
def k0_cond2 (i : grid0.Coords) : BitVec 1 :=
  let arg1 : BitVec 32 := BitVec.ofNat 32 (i 1).val
  let c7_i32 : BitVec 32 := 7#32
  let v30 : BitVec 1 := Scalar.cmpi .eq arg1 c7_i32
  let v31 : BitVec 32 := Scalar.extui v30
  let c0_i32_13 : BitVec 32 := 0#32
  let v32 : BitVec 1 := Scalar.cmpi .ne v31 c0_i32_13
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S16384_S16384x1 : S16384.ShapeCasts S16384x1
  bitsLt_bf16_f32 : FTy.bits .bf16 < FTy.bits .f32
  shapeCasts_S8x512_S8x1x512 : S8x512.ShapeCasts S8x1x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  natLt_1_32 : 1 < 32
  broadcasts_S2048x1_S2048x512 : S2048x1.Broadcasts S2048x512
  h_S1x512x512 : 0 < S1x512x512.numel
  shapeCasts_S1x512x512_S512x512 : S1x512x512.ShapeCasts S512x512
  h_S1x1x512 : 0 < S1x1x512.numel
  shapeCasts_S1x1x512_S1x512 : S1x1x512.ShapeCasts S1x512
  broadcasts_S1x512_S2048x512 : S1x512.Broadcasts S2048x512
  dot_S2048x512_S512x512_S2048x512_1_0_0_1_n_n_wf : DotDims.WF S2048x512 S512x512 S2048x512 [1] [0] [0] [1] [] []
  hrank0 : 0 < grid0.rank
  k0_off1_inb : ∀ i : grid0.Coords, ∀ a, (k0_off1 i) a + S1x512x512.size a ≤ S8x512x512.size a
  k0_off2_inb : ∀ i : grid0.Coords, ∀ a, (k0_off2 i) a + S1x1x512.size a ≤ S8x1x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .bf16 = 32 ∨ (Rect.block (s := S16384x512) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S16384x1.size a
  hwx0_1 : ∀ i : grid0.Coords, EltTy.bits .i32 = 32 ∨ (Rect.block (s := S16384x1) S2048x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x512x512.size a ≤ S8x512x512.size a
  hwx0_2 : ∀ i : grid0.Coords, EltTy.bits .bf16 = 32 ∨ (Rect.block (s := S8x512x512) S8x512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x1x512.size a ≤ S8x1x512.size a
  hwx0_3 : ∀ i : grid0.Coords, EltTy.bits .f32 = 32 ∨ (Rect.block (s := S8x1x512) S8x1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S16384x512.size a
  hwx0_4 : ∀ i : grid0.Coords, EltTy.bits .f32 = 32 ∨ (Rect.block (s := S16384x512) S2048x512.size (cc0_transform_4 i) (hinb0_4 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_v1) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8x1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x512 : Shape := ⟨2, ![16384, 512]⟩
abbrev S16384 : Shape := ⟨1, ![16384]⟩
abbrev S8x512x512 : Shape := ⟨3, ![8, 512, 512]⟩
abbrev S8x512 : Shape := ⟨2, ![8, 512]⟩
abbrev S1x16384 : Shape := ⟨2, ![1, 16384]⟩
abbrev S8 : Shape := ⟨1, ![8]⟩
abbrev S8x1 : Shape := ⟨2, ![8, 1]⟩
abbrev S8x16384 : Shape := ⟨2, ![8, 16384]⟩
abbrev S1x16384x512 : Shape := ⟨3, ![1, 16384, 512]⟩
abbrev S8x16384x1 : Shape := ⟨3, ![8, 16384, 1]⟩
abbrev S8x16384x512 : Shape := ⟨3, ![8, 16384, 512]⟩
abbrev S8x1x512 : Shape := ⟨3, ![8, 1, 512]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384, .i32⟩
  | .hbm, ⟨2, _⟩ => ⟨S8x512x512, .f32⟩
  | .hbm, ⟨3, _⟩ => ⟨S8x512, .f32⟩
  | .hbm, ⟨4, _⟩ => ⟨S1x16384, .i32⟩
  | .hbm, ⟨5, _⟩ => ⟨S8, .i32⟩
  | .hbm, ⟨6, _⟩ => ⟨S8x1, .i32⟩
  | .hbm, ⟨7, _⟩ => ⟨S8x16384, .i32⟩
  | .hbm, ⟨8, _⟩ => ⟨S8x16384, .i32⟩
  | .hbm, ⟨9, _⟩ => ⟨S8x16384, .i1⟩
  | .hbm, ⟨10, _⟩ => ⟨S8x16384, .f32⟩
  | .hbm, ⟨11, _⟩ => ⟨S1x16384x512, .f32⟩
  | .hbm, ⟨12, _⟩ => ⟨S8x16384x1, .f32⟩
  | .hbm, ⟨13, _⟩ => ⟨S8x16384x512, .f32⟩
  | .hbm, ⟨14, _⟩ => ⟨S8x16384x512, .f32⟩
  | .hbm, ⟨15, _⟩ => ⟨S8x16384x512, .f32⟩
  | .hbm, ⟨16, _⟩ => ⟨S8x16384x512, .f32⟩
  | .hbm, ⟨17, _⟩ => ⟨S8x1x512, .f32⟩
  | .hbm, ⟨18, _⟩ => ⟨S8x16384x512, .f32⟩
  | .hbm, ⟨19, _⟩ => ⟨S8x16384x512, .f32⟩
  | .hbm, ⟨20, _⟩ => ⟨S_, .f32⟩
  | .hbm, ⟨21, _⟩ => ⟨S8x16384x512, .f32⟩
  | .hbm, ⟨22, _⟩ => ⟨S8x16384x512, .f32⟩
  | .hbm, ⟨23, _⟩ => ⟨S_, .f32⟩
  | .hbm, ⟨24, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_call0_cst : Ref sig .tc := ⟨.hbm, 20, rfl⟩
abbrev main_call0_v0 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  bcast_S16384_S1x16384_1 : S16384.BroadcastsInDim S1x16384 (![1] : Fin 1 → Fin S1x16384.rank)
  bcast_S8_S8x1_0 : S8.BroadcastsInDim S8x1 (![0] : Fin 1 → Fin S8x1.rank)
  bcast_S1x16384_S8x16384_0_1 : S1x16384.BroadcastsInDim S8x16384 (![0, 1] : Fin 2 → Fin S8x16384.rank)
  bcast_S8x1_S8x16384_0_1 : S8x1.BroadcastsInDim S8x16384 (![0, 1] : Fin 2 → Fin S8x16384.rank)
  bcast_S16384x512_S1x16384x512_1_2 : S16384x512.BroadcastsInDim S1x16384x512 (![1, 2] : Fin 2 → Fin S1x16384x512.rank)
  bcast_S8x16384_S8x16384x1_0_1 : S8x16384.BroadcastsInDim S8x16384x1 (![0, 1] : Fin 2 → Fin S8x16384x1.rank)
  bcast_S1x16384x512_S8x16384x512_0_1_2 : S1x16384x512.BroadcastsInDim S8x16384x512 (![0, 1, 2] : Fin 3 → Fin S8x16384x512.rank)
  bcast_S8x16384x1_S8x16384x512_0_1_2 : S8x16384x1.BroadcastsInDim S8x16384x512 (![0, 1, 2] : Fin 3 → Fin S8x16384x512.rank)
  bcast_S8x512_S8x1x512_0_2 : S8x512.BroadcastsInDim S8x1x512 (![0, 2] : Fin 2 → Fin S8x1x512.rank)
  bcast_S8x1x512_S8x16384x512_0_1_2 : S8x1x512.BroadcastsInDim S8x16384x512 (![0, 1, 2] : Fin 3 → Fin S8x16384x512.rank)
  bcast_S_S8x16384x512 : S_.BroadcastsInDim S8x16384x512 (![] : Fin 0 → Fin S8x16384x512.rank)
  reducesTo_S8x16384x512_S16384x512_d0 : S8x16384x512.ReducesTo [0] S16384x512
  h_S_ : 0 < S_.numel
  dot_S8x16384x512_S8x512x512_S8x16384x512_2_1_1_2_0_0_wf : DotDims.WF S8x16384x512 S8x512x512 S8x16384x512 [2] [1] [1] [2] [0] [0]

variable [Facts₀]

def dot_S8x16384x512_S8x512x512_S8x16384x512_2_1_1_2_0_0 : DotDims S8x16384x512 S8x512x512 S8x16384x512 where
  lhsContracting := [2]
  rhsContracting := [1]
  lhsNonContracting := [1]
  rhsNonContracting := [2]
  lhsBatch := [0]
  rhsBatch := [0]
  wf := dot_S8x16384x512_S8x512x512_S8x16384x512_2_1_1_2_0_0_wf

class Facts : Prop extends Facts₀ where

variable [Facts]
-- ==== Proof.Spec.lean ====
/-
  The specification both programs meet, on the extended reals.

  The inputs are a matrix x of 16384 rows and 512 features, a condition id per row, and for each of 8 conditions c a
  512 × 512 weight matrix W_c and a bias row b_c. For a row r, a condition c and an output feature e, the term of c is

      term r c e = max ( (∑ d, (x r d · [cond r = c]) · W_c d e) + b_c e ) 0 ,

  the row masked by the 0/1 indicator of "row r has condition c", pushed through condition c's affine map and clamped
  below at zero; a masked-out row still contributes max (b_c e) 0. The result at (r, e) is the zero the accumulation
  starts from plus the sum of the eight terms. The indicator is the comparison bit of the two 32-bit words read as an
  unsigned number, 0 or 1.
-/
import Idealize.ShloMosaic.PureOps.Ideal
import Idealize.ShloMosaic.Lib.ValueIdx

noncomputable section

open scoped BigOperators

namespace Cert.CondSum

open Idealize.ShloMosaic Idealize.ShloMosaic.ValueIdx

/-- The shapes of the four inputs. -/
abbrev SX : Shape := ⟨2, ![16384, 512]⟩
abbrev SC : Shape := ⟨1, ![16384]⟩
abbrev SW : Shape := ⟨3, ![8, 512, 512]⟩
abbrev SB : Shape := ⟨2, ![8, 512]⟩

/-- The indicator of "the row's condition word is the condition number c", as an extended real: 0 or 1. -/
def ind (w : BitVec 32) (c : ℕ) : EReal :=
  FloatOps.uitofp (F := Ideal) .f32 (IntOp.cmpi .eq w (BitVec.ofNat 32 c))

/-- Condition c's term at row r, output feature e. -/
def term (x : SX.Idx → EReal) (cond : SC.Idx → BitVec 32) (W : SW.Idx → EReal) (b : SB.Idx → EReal)
    (r : Fin 16384) (c : Fin 8) (e : Fin 512) : EReal :=
  max ((∑ d : Fin 512, (x (ix2 r d) * ind (cond (ix1 r)) c.val) * W (ix3 c d e)) + b (ix2 c e))
    (Ideal.ofBits .f32 0x00000000#32)

/-- The result: the starting zero plus the eight conditions' terms. -/
def G (x : SX.Idx → EReal) (cond : SC.Idx → BitVec 32) (W : SW.Idx → EReal) (b : SB.Idx → EReal) : SX.Idx → EReal :=
  fun i => Ideal.ofBits .f32 0x00000000#32 + ∑ c : Fin 8, term x cond W b (i 0) c (i 1)

end Cert.CondSum

end
-- ==== Proof.RefValue.lean ====
/-
  The reference's result, read index by index, is the specification.

  The reference lays the 8 condition numbers against the 16384 row conditions as an [8, 16384] table of comparison
  bits, converts the bits to numbers, multiplies the matrix x (laid out once per condition) by the table's row, takes
  for every condition c the product of the masked matrix with W_c, adds b_c, clamps at zero, and sums over the
  condition axis from zero. At row r and output feature e that is the starting zero plus, over the conditions c,
  max ((∑ d, (x r d · [cond r = c]) · W_c d e) + b_c e) 0: every layout operation only re-reads an operand at
  coordinates, the condition number at position c of the iota is the 32-bit word c.
-/
import proofs.«158680_j53919019434508_2_alg».proof.Proof.Gen.ReferenceIdeal.Read
import proofs.«158680_j53919019434508_2_alg».proof.Proof.Spec

noncomputable section

open scoped BigOperators

namespace Cert.ReferenceIdeal.RefValue

open Cert.ReferenceIdeal Cert.ReferenceIdeal.Read Idealize.ShloMosaic Idealize.ShloMosaic.ValueIdx

/-- Through the layout operations, the matrix x is read at (row, contracted feature). -/
theorem x_index (i : S16384x512.Idx) (k : Fin 8) (d : Fin 512) :
    idx_main_v7 (idx_main_v9 (lidx_main_v12 (idx_main_v17 i k) d)) = ix2 (i 0) d :=
  funext fun a => Fin.ext (by match a with | ⟨0, _⟩ => rfl | ⟨1, _⟩ => rfl)

/-- The condition column is read at the row. -/
theorem cond_index (i : S16384x512.Idx) (k : Fin 8) (d : Fin 512) :
    idx_main_v0 (idx_main_v3 (idx_main_v8 (idx_main_v10 (lidx_main_v12 (idx_main_v17 i k) d)))) = ix1 (i 0) :=
  funext fun a => Fin.ext (by match a with | ⟨0, _⟩ => rfl)

/-- The condition number compared against is the summed condition. -/
theorem iota_index (i : S16384x512.Idx) (k : Fin 8) (d : Fin 512) :
    ((idx_main_v2 (idx_main_v4 (idx_main_v8 (idx_main_v10 (lidx_main_v12 (idx_main_v17 i k) d))))) 0).val = k.val := rfl

/-- The weights are read at (condition, contracted feature, output feature). -/
theorem w_index (i : S16384x512.Idx) (k : Fin 8) (d : Fin 512) :
    ridx_main_v12 (idx_main_v17 i k) d = ix3 k d (i 1) :=
  funext fun a => Fin.ext (by match a with | ⟨0, _⟩ => rfl | ⟨1, _⟩ => rfl | ⟨2, _⟩ => rfl)

/-- The bias is read at (condition, output feature). -/
theorem b_index (i : S16384x512.Idx) (k : Fin 8) :
    idx_main_v13 (idx_main_v14 (idx_main_v17 i k)) = ix2 k (i 1) :=
  funext fun a => Fin.ext (by match a with | ⟨0, _⟩ => rfl | ⟨1, _⟩ => rfl)

/-- The reference's last stage at the exact instance is the specification's function of the four arguments. -/
theorem result_eq (x0 : S16384x512.Idx → EReal) (x1 : S16384.Idx → BitVec 32) (x2 : S8x512x512.Idx → EReal)
    (x3 : S8x512.Idx → EReal) :
    val_main_v17 (F := Ideal) x0 x1 x2 x3 = Cert.CondSum.G x0 x1 x2 x3 := by
  funext i
  rw [val_main_v17_apply]
  simp only [val_main_v16_apply, val_main_v15_apply, val_main_v12_apply, val_main_v14_apply, val_main_v13_apply,
    val_main_call0_v0_apply, val_main_call0_cst_apply, val_main_cst_apply, val_main_v11_apply, val_main_v9_apply,
    val_main_v7_apply, val_main_v10_apply, val_main_v8_apply, val_main_v6_apply, val_main_v5_apply,
    val_main_v3_apply, val_main_v0_apply, val_main_v4_apply, val_main_v2_apply, val_main_v1_apply,
    Ideal.addf_def, Ideal.mulf_def, Ideal.maximumf_def, Ideal.ofBits_def]
  simp only [x_index, cond_index, w_index, b_index, Cert.CondSum.G, Cert.CondSum.term, Cert.CondSum.ind]
  rfl

end Cert.ReferenceIdeal.RefValue

end
-- ==== Proof.KernelPieces.lean ====
/-
  What one grid point's body leaves in the carried accumulator and in the output block, as values.

  A grid point is (row tile, condition). Its body reads the row tile's block of x, the tile's condition column, the
  weight matrix and the bias row of the point's condition (one matrix and one row out of the eight resident ones),
  and the accumulator; it leaves in the accumulator the old contents plus the point's clamped affine image of the
  masked block. At a tile's first condition the accumulator is first set to zero, so the old contents are the zero
  block; at a tile's last condition the output block receives the accumulator's new contents.
-/
import proofs.«158680_j53919019434508_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- The weight matrix the body loads at a point: the one of the point's condition, as a [1, 512, 512] slab. -/
abbrev wLoad (i : grid0.Coords) (x2 : Vec F S8x512x512 .bf16) : Vec F S1x512x512 .bf16 :=
  View.ld x2 (Rect.unit (s := S8x512x512) (k0_off1 i) S1x512x512.size (k0_off1_inb i))

/-- The bias row the body loads at a point: the one of the point's condition, as a [1, 1, 512] slab. -/
abbrev bLoad (i : grid0.Coords) (x3 : Vec F S8x1x512 .f32) : Vec F S1x1x512 .f32 :=
  View.ld x3 (Rect.unit (s := S8x1x512) (k0_off2 i) S1x1x512.size (k0_off2_inb i))

/-- A middle condition of a tile: the accumulator ends at the body's sum over what it held. -/
theorem acc_B (c : Dev nD) (i : grid0.Coords) (a2 : Memref sig .tc .vmem S2048x512 .bf16) (h2 : a2.IsWhole) (a3 : Memref sig .tc .vmem S2048x1 .i32) (h3 : a3.IsWhole) (a4 : Memref sig .tc .vmem S8x512x512 .bf16) (h4 : a4.IsWhole) (a5 : Memref sig .tc .vmem S8x1x512 .f32) (h5 : a5.IsWhole) (a6 : Memref sig .tc .vmem S2048x512 .f32) (h6 : a6.IsWhole) (a7 : Memref sig .tc .vmem S2048x512 .f32) (h7 : a7.IsWhole) (hc0 : ¬cond0_0 i) (hc1 : ¬cond0_1 i)
    (x0 : Vec F S2048x512 .bf16) (x1 : Vec F S2048x1 .i32) (x2 : Vec F S8x512x512 .bf16) (x3 : Vec F S8x1x512 .f32) (xs0 : Vec F S2048x512 .f32) :
    sout0_B_0 c i a2 h2 a3 h3 a4 h4 a5 h5 a6 h6 a7 h7 hc0 hc1 x0 x1 x2 x3 xs0 = k0_pay2 i x0 x1 (wLoad i x2) (bLoad i x3) xs0 := by
  unfold sout0_B_0
  rw [View.read_writes_eq_canon _ _ _ (scover0_B_0 c i a2 h2 a3 h3 a4 h4 a5 h5 a6 h6 a7 h7 hc0 hc1 x0 x1 x2 x3 xs0)]
  unfold kernelRun0_B
  dsimp only
  rw [View.canon_unit_zero hz]
  simp only [View.readAt_eq_ld, h2.read_unread, h3.read_unread, h4.read_unread, h5.read_unread, h7.read_unread,
    View.ld_unit_zero (S := S2048x512) hz, View.ld_unit_zero (S := S2048x1) hz]

/-- The last condition of a tile: the accumulator ends at the body's sum over what it held, -/
theorem acc_C (c : Dev nD) (i : grid0.Coords) (a2 : Memref sig .tc .vmem S2048x512 .bf16) (h2 : a2.IsWhole) (a3 : Memref sig .tc .vmem S2048x1 .i32) (h3 : a3.IsWhole) (a4 : Memref sig .tc .vmem S8x512x512 .bf16) (h4 : a4.IsWhole) (a5 : Memref sig .tc .vmem S8x1x512 .f32) (h5 : a5.IsWhole) (a6 : Memref sig .tc .vmem S2048x512 .f32) (h6 : a6.IsWhole) (a7 : Memref sig .tc .vmem S2048x512 .f32) (h7 : a7.IsWhole) (hc0 : ¬cond0_0 i) (hc1 : cond0_1 i)
    (x0 : Vec F S2048x512 .bf16) (x1 : Vec F S2048x1 .i32) (x2 : Vec F S8x512x512 .bf16) (x3 : Vec F S8x1x512 .f32) (xs0 : Vec F S2048x512 .f32) :
    sout0_C_0 c i a2 h2 a3 h3 a4 h4 a5 h5 a6 h6 a7 h7 hc0 hc1 x0 x1 x2 x3 xs0 = k0_pay2 i x0 x1 (wLoad i x2) (bLoad i x3) xs0 := by
  unfold sout0_C_0
  rw [View.read_writes_eq_canon _ _ _ (scover0_C_0 c i a2 h2 a3 h3 a4 h4 a5 h5 a6 h6 a7 h7 hc0 hc1 x0 x1 x2 x3 xs0)]
  unfold kernelRun0_C
  dsimp only
  sl_unfold_words
  rw [View.canon_unit_zero hz]
  simp only [View.readAt_eq_ld, h2.read_unread, h3.read_unread, h4.read_unread, h5.read_unread, h7.read_unread,
    View.ld_unit_zero (S := S2048x512) hz, View.ld_unit_zero (S := S2048x1) hz]
  rfl

/-- and the output block receives the same contents (the accumulator read back after its store). -/
theorem out_C (c : Dev nD) (i : grid0.Coords) (a2 : Memref sig .tc .vmem S2048x512 .bf16) (h2 : a2.IsWhole) (a3 : Memref sig .tc .vmem S2048x1 .i32) (h3 : a3.IsWhole) (a4 : Memref sig .tc .vmem S8x512x512 .bf16) (h4 : a4.IsWhole) (a5 : Memref sig .tc .vmem S8x1x512 .f32) (h5 : a5.IsWhole) (a6 : Memref sig .tc .vmem S2048x512 .f32) (h6 : a6.IsWhole) (a7 : Memref sig .tc .vmem S2048x512 .f32) (h7 : a7.IsWhole) (hc0 : ¬cond0_0 i) (hc1 : cond0_1 i)
    (x0 : Vec F S2048x512 .bf16) (x1 : Vec F S2048x1 .i32) (x2 : Vec F S8x512x512 .bf16) (x3 : Vec F S8x1x512 .f32) (xs0 : Vec F S2048x512 .f32) :
    out0_C_4 c i a2 h2 a3 h3 a4 h4 a5 h5 a6 h6 a7 h7 hc0 hc1 x0 x1 x2 x3 xs0 = k0_pay2 i x0 x1 (wLoad i x2) (bLoad i x3) xs0 := by
  unfold out0_C_4
  rw [View.read_writes_eq_canon _ _ _ (cover0_C_4 c i a2 h2 a3 h3 a4 h4 a5 h5 a6 h6 a7 h7 hc0 hc1 x0 x1 x2 x3 xs0)]
  unfold kernelRun0_C
  dsimp only
  sl_unfold_words
  rw [View.canon_unit_zero hz, View.readCov_unit_zero (S := S2048x512) _ hz]
  simp only [View.readAt_eq_ld, h2.read_unread, h3.read_unread, h4.read_unread, h5.read_unread, h7.read_unread,
    View.ld_unit_zero (S := S2048x512) hz, View.ld_unit_zero (S := S2048x1) hz]
  rfl

/-- The first condition of a tile: the accumulator is set to the zero block, read back, and ends at the body's sum
    over the zero block. -/
theorem acc_A (c : Dev nD) (i : grid0.Coords) (a2 : Memref sig .tc .vmem S2048x512 .bf16) (h2 : a2.IsWhole) (a3 : Memref sig .tc .vmem S2048x1 .i32) (h3 : a3.IsWhole) (a4 : Memref sig .tc .vmem S8x512x512 .bf16) (h4 : a4.IsWhole) (a5 : Memref sig .tc .vmem S8x1x512 .f32) (h5 : a5.IsWhole) (a6 : Memref sig .tc .vmem S2048x512 .f32) (h6 : a6.IsWhole) (a7 : Memref sig .tc .vmem S2048x512 .f32) (h7 : a7.IsWhole) (hc0 : cond0_0 i) (hc1 : ¬cond0_1 i)
    (x0 : Vec F S2048x512 .bf16) (x1 : Vec F S2048x1 .i32) (x2 : Vec F S8x512x512 .bf16) (x3 : Vec F S8x1x512 .f32) :
    sout0_A_0 c i a2 h2 a3 h3 a4 h4 a5 h5 a6 h6 a7 h7 hc0 hc1 x0 x1 x2 x3 = k0_pay2 i x0 x1 (wLoad i x2) (bLoad i x3) (k0_pay1 (F := F)) := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S2048x512) hz, View.readCov_unit_zero (S := S2048x512) _ hz]
  simp only [View.readAt_eq_ld, h2.read_unread, h3.read_unread, h4.read_unread, h5.read_unread,
    View.ld_unit_zero (S := S2048x512) hz, View.ld_unit_zero (S := S2048x1) hz]
  rfl

end Cert.KernelIdeal.Pieces

end
-- ==== Proof.LibColumns.lean ====
/-
  Column forms of a keepdims reduction, read at coordinates: a vector of `a` entries cast to the column `[a, 1]` reads
  its entry `i` at `(i, 0)`, and a column `[a, 1]` broadcast along `b` columns reads, at `(p, c)`, the column at
  `(p, 0)` — so a per-row value (a row maximum, a row sum) laid against every entry of its row is that row's value.
-/
import Idealize.ShloMosaic.Lib.ValueIdx
import Idealize.ShloMosaic.Lib.Pipeline.Value

namespace Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value cast to a column and broadcast along the row reads, at `(p, c)`, the value of row `p`. -/
theorem broadcastTo_column_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Idealize.ShloMosaic.ValueIdx
-- ==== Proof.LibMiddleUnit.lean ====
/-
  A unit axis inserted in the middle of a matrix shape, read at coordinates: an [a, b] array cast to [a, 1, b]
  (a per-row family of vectors laid out as one-row matrices, as a bias table b[k, :] reshaped to [k, 1, :]) reads,
  at (k, u, q), the operand at (k, q) — both sit at row-major position k · b + q.
-/
import Idealize.ShloMosaic.Lib.ValueIdx
import Idealize.ShloMosaic.Lib.Pipeline.Value

namespace Idealize.ShloMosaic.ValueIdx

variable {α : Type}

/-- An [a, b] array cast to [a, 1, b] reads, at (k, u, q), the operand at (k, q). -/
theorem shapeCast_ab_a1b_apply {a b : ℕ} (x : (⟨2, ![a, b]⟩ : Shape).Idx → α)
    (h : (⟨2, ![a, b]⟩ : Shape).ShapeCasts ⟨3, ![a, 1, b]⟩) (k : Fin a) (u : Fin 1) (q : Fin b) :
    shapeCast ⟨3, ![a, 1, b]⟩ x h (ix3 k u q) = x (ix2 k q) :=
  shapeCast_apply x h _ _ (by
    have hu : u.val = 0 := by omega
    rw [Shape.rowMajor_val_two, Shape.rowMajor_val_three]
    show k.val * b + q.val = (k.val * 1 + u.val) * b + q.val
    rw [hu, Nat.mul_one, Nat.add_zero])

/-- An [a, 1, b] array cast back to [a, b] reads, at (k, q), the operand at (k, 0, q). -/
theorem shapeCast_a1b_ab_apply {a b : ℕ} (x : (⟨3, ![a, 1, b]⟩ : Shape).Idx → α)
    (h : (⟨3, ![a, 1, b]⟩ : Shape).ShapeCasts ⟨2, ![a, b]⟩) (k : Fin a) (q : Fin b) :
    shapeCast ⟨2, ![a, b]⟩ x h (ix2 k q) = x (ix3 k (0 : Fin 1) q) :=
  shapeCast_apply x h _ _ (by
    rw [Shape.rowMajor_val_three, Shape.rowMajor_val_two]
    show (k.val * 1 + 0) * b + q.val = k.val * b + q.val
    rw [Nat.mul_one, Nat.add_zero])

end Idealize.ShloMosaic.ValueIdx
-- ==== Proof.KernelBlocks.lean ====
/-
  Where a grid point's blocks sit in the four inputs.

  The 64 grid points are (row tile, condition) pairs in row-major order: point t is tile t / 8, condition t % 8.
  The tile's block of x is rows 2048 · (t / 8) … of the matrix (after a change of float format, the identity on the
  extended reals); its condition column is the same rows of the condition vector laid out as a column; the weight
  and bias windows hold all eight conditions' matrices and rows (the bias rows as [8, 1, 512]) at every point, and
  the body loads the matrix and the row of condition t % 8.
-/
import proofs.«158680_j53919019434508_2_alg».proof.Proof.KernelPieces
import proofs.«158680_j53919019434508_2_alg».proof.Proof.LibColumns
import proofs.«158680_j53919019434508_2_alg».proof.Proof.LibMiddleUnit
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Blocks

open Cert.KernelIdeal Cert.KernelIdeal.Gen Cert.KernelIdeal.Pieces Idealize.ShloMosaic Idealize.ShloMosaic.TcCoe
  Idealize.ShloMosaic.ValueIdx Idealize.SL.Sem Idealize.ShloMosaic.StableHlo

variable {F : FTy → Type} [FloatOps F]

/-! ## The grid's points and the windows' block indices, decided once -/

/-- Point t's condition coordinate is t % 8. -/
theorem coord_cond : ∀ t : Fin cfg0.N, ((grid0.coords t) 1).val = t.val % 8 :=
  (by decide +kernel : ∀ t : Fin grid0.N, ((grid0.coords t) 1).val = t.val % 8)

/-- The x window's block index at point t is (t / 8, 0); -/
theorem index_x : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)
/-- so is the condition column's; -/
theorem index_c : ∀ t : Fin cfg0.N, win0_1.index t (0 : Fin 2) = t.val / 8 ∧ win0_1.index t (1 : Fin 2) = 0 :=
  (by decide +kernel : ∀ t : Fin grid0.N, win0_1.index t (0 : Fin 2) = t.val / 8 ∧ win0_1.index t (1 : Fin 2) = 0)
/-- the weights' and the biases' are zero: each block is its whole array; -/
theorem index_w : ∀ t : Fin cfg0.N, win0_2.index t (0 : Fin 3) = 0 ∧ win0_2.index t (1 : Fin 3) = 0 ∧ win0_2.index t (2 : Fin 3) = 0 :=
  (by decide +kernel : ∀ t : Fin grid0.N, win0_2.index t (0 : Fin 3) = 0 ∧ win0_2.index t (1 : Fin 3) = 0 ∧ win0_2.index t (2 : Fin 3) = 0)
theorem index_b : ∀ t : Fin cfg0.N, win0_3.index t (0 : Fin 3) = 0 ∧ win0_3.index t (1 : Fin 3) = 0 ∧ win0_3.index t (2 : Fin 3) = 0 :=
  (by decide +kernel : ∀ t : Fin grid0.N, win0_3.index t (0 : Fin 3) = 0 ∧ win0_3.index t (1 : Fin 3) = 0 ∧ win0_3.index t (2 : Fin 3) = 0)
/-- and the output's is the x window's. -/
theorem index_o : ∀ t : Fin cfg0.N, win0_4.index t (0 : Fin 2) = t.val / 8 ∧ win0_4.index t (1 : Fin 2) = 0 :=
  (by decide +kernel : ∀ t : Fin grid0.N, win0_4.index t (0 : Fin 2) = t.val / 8 ∧ win0_4.index t (1 : Fin 2) = 0)

/-- Row p of the tile of point n, as a row of the whole matrix (n taken modulo the grid, so that every natural
    number names a row). -/
def rowOf (n : ℕ) (p : Fin 2048) : Fin 16384 := ⟨(n / 8 % 8) * 2048 + p.val, by have := p.isLt; have := Nat.mod_lt (n / 8) (show 0 < 8 by decide); omega⟩

/-- The condition of point n. -/
def condOf (n : ℕ) : Fin 8 := ⟨n % 8, Nat.mod_lt n (by decide)⟩

variable (m : (ℓ : Loc nD τ sig) → Buf (Elt F) ℓ)

/-! ## The blocks read off the arrays the region finds -/

/-- The x block of point t at (p, d) is the staged matrix at (row p of tile t / 8, d). -/
theorem xblk_apply (c : Dev nD) (t : Fin cfg0.N) (p : Fin 2048) (d : Fin 512) :
    (iblk m c 0 t : Vec F S2048x512 .bf16) (ix2 p d) = V m c main_v1 (ix2 (rowOf t.val p) d) := by
  have hN : t.val < 64 := lt_of_lt_of_eq t.isLt (show cfg0.N = 64 from N_0)
  unfold iblk
  rw [View.read_apply]
  show V m c main_v1 (((cfg0.win 0).blk t).view.emb (ix2 p d)) = V m c main_v1 _
  refine congrArg (V m c main_v1) ?_
  funext a
  apply Fin.ext
  match a with
  | ⟨0, _⟩ =>
    show win0_0.index t 0 * 2048 + 1 * p.val = (t.val / 8 % 8) * 2048 + p.val
    rw [(index_x t).1]; omega
  | ⟨1, _⟩ =>
    show win0_0.index t 1 * 512 + 1 * d.val = d.val
    rw [(index_x t).2]; omega

/-- The condition column of point t at (p, 0) is the staged column at (row p of tile t / 8, 0). -/
theorem cblk_apply (c : Dev nD) (t : Fin cfg0.N) (p : Fin 2048) (u : Fin 1) :
    (iblk m c 1 t : Vec F S2048x1 .i32) (ix2 p u) = V m c main_v0 (ix2 (rowOf t.val p) u) := by
  have hN : t.val < 64 := lt_of_lt_of_eq t.isLt (show cfg0.N = 64 from N_0)
  unfold iblk
  rw [View.read_apply]
  show V m c main_v0 (((cfg0.win 1).blk t).view.emb (ix2 p u)) = V m c main_v0 _
  refine congrArg (V m c main_v0) ?_
  funext a
  apply Fin.ext
  match a with
  | ⟨0, _⟩ =>
    show win0_1.index t 0 * 2048 + 1 * p.val = (t.val / 8 % 8) * 2048 + p.val
    rw [(index_c t).1]; omega
  | ⟨1, _⟩ =>
    show win0_1.index t 1 * 1 + 1 * u.val = u.val
    rw [(index_c t).2]; omega

/-- The weight window's block at any point is the whole staged array. -/
theorem wblk_apply (c : Dev nD) (t : Fin cfg0.N) (k : Fin 8) (d q : Fin 512) :
    (iblk m c 2 t : Vec F S8x512x512 .bf16) (ix3 k d q) = V m c main_v2 (ix3 k d q) := by
  unfold iblk
  rw [View.read_apply]
  show V m c main_v2 (((cfg0.win 2).blk t).view.emb (ix3 k d q)) = V m c main_v2 _
  refine congrArg (V m c main_v2) ?_
  funext a
  apply Fin.ext
  match a with
  | ⟨0, _⟩ =>
    show win0_2.index t 0 * 8 + 1 * k.val = k.val
    rw [(index_w t).1]; omega
  | ⟨1, _⟩ =>
    show win0_2.index t 1 * 512 + 1 * d.val = d.val
    rw [(index_w t).2.1]; omega
  | ⟨2, _⟩ =>
    show win0_2.index t 2 * 512 + 1 * q.val = q.val
    rw [(index_w t).2.2]; omega

/-- The bias window's block at any point is the whole staged array. -/
theorem bblk_apply (c : Dev nD) (t : Fin cfg0.N) (k : Fin 8) (u : Fin 1) (q : Fin 512) :
    (iblk m c 3 t : Vec F S8x1x512 .f32) (ix3 k u q) = V m c main_v3 (ix3 k u q) := by
  unfold iblk
  rw [View.read_apply]
  show V m c main_v3 (((cfg0.win 3).blk t).view.emb (ix3 k u q)) = V m c main_v3 _
  refine congrArg (V m c main_v3) ?_
  funext a
  apply Fin.ext
  match a with
  | ⟨0, _⟩ =>
    show win0_3.index t 0 * 8 + 1 * k.val = k.val
    rw [(index_b t).1]; omega
  | ⟨1, _⟩ =>
    show win0_3.index t 1 * 1 + 1 * u.val = u.val
    rw [(index_b t).2.1]; omega
  | ⟨2, _⟩ =>
    show win0_3.index t 2 * 512 + 1 * q.val = q.val
    rw [(index_b t).2.2]; omega

/-- The output block of point t holds, at (p, q), the result's entry (row p of tile t / 8, q). -/
theorem oblk_emb (t : Fin cfg0.N) (p : Fin 2048) (q : Fin 512) :
    ((cfg0.win 4).blk t).view.emb (ix2 p q) = ix2 (rowOf t.val p) q := by
  have hN : t.val < 64 := lt_of_lt_of_eq t.isLt (show cfg0.N = 64 from N_0)
  funext a
  apply Fin.ext
  match a with
  | ⟨0, _⟩ =>
    show win0_4.index t 0 * 2048 + 1 * p.val = (t.val / 8 % 8) * 2048 + p.val
    rw [(index_o t).1]; omega
  | ⟨1, _⟩ =>
    show win0_4.index t 1 * 512 + 1 * q.val = q.val
    rw [(index_o t).2]; omega

/-! ## The body's two slab loads -/

/-- The loaded weight slab at (0, d, q) is the window's matrix of the point's condition at (d, q). -/
theorem wLoad_apply (i : grid0.Coords) (x2 : Vec F S8x512x512 .bf16) (k : Fin 8) (hk : (i 1).val = k.val)
    (d q : Fin 512) : wLoad i x2 (ix3 (0 : Fin 1) d q) = x2 (ix3 k d q) := by
  show x2 _ = x2 _
  refine congrArg x2 ?_
  funext a
  apply Fin.ext
  match a with
  | ⟨0, _⟩ =>
    show k0_off1 i 0 + 1 * 0 = k.val
    rw [k0_off1_eq]; show (i 1).val + 1 * 0 = k.val; omega
  | ⟨1, _⟩ =>
    show k0_off1 i 1 + 1 * d.val = d.val
    rw [k0_off1_eq]; show 0 + 1 * d.val = d.val; omega
  | ⟨2, _⟩ =>
    show k0_off1 i 2 + 1 * q.val = q.val
    rw [k0_off1_eq]; show 0 + 1 * q.val = q.val; omega

/-- The loaded bias slab at (0, 0, q) is the window's row of the point's condition at q. -/
theorem bLoad_apply (i : grid0.Coords) (x3 : Vec F S8x1x512 .f32) (k : Fin 8) (hk : (i 1).val = k.val)
    (u : Fin 1) (q : Fin 512) : bLoad i x3 (ix3 (0 : Fin 1) u q) = x3 (ix3 k u q) := by
  show x3 _ = x3 _
  refine congrArg x3 ?_
  funext a
  apply Fin.ext
  match a with
  | ⟨0, _⟩ =>
    show k0_off2 i 0 + 1 * 0 = k.val
    rw [k0_off2_eq]; show (i 1).val + 1 * 0 = k.val; omega
  | ⟨1, _⟩ =>
    show k0_off2 i 1 + 1 * u.val = u.val
    rw [k0_off2_eq]; show 0 + 1 * u.val = u.val; omega
  | ⟨2, _⟩ =>
    show k0_off2 i 2 + 1 * q.val = q.val
    rw [k0_off2_eq]; show 0 + 1 * q.val = q.val; omega

/-! ## The staged arrays are the inputs re-laid by the host -/

/-- The staged matrix is x after a change of float format. -/
theorem V_x (c : Dev nD) : (V m c main_v1 : S16384x512.Idx → F .bf16)
    = truncf .bf16 (m ((c : Thread nD τ).loc main_arg0)) bitsLt_bf16_f32 := by
  dsimp only [Gen.V, Gen.hostOps0]; after_results

/-- The staged condition column is the condition vector cast to a column. -/
theorem V_c (c : Dev nD) : (V m c main_v0 : S16384x1.Idx → BitVec 32)
    = shapeCast S16384x1 (m ((c : Thread nD τ).loc main_arg1)) shapeCasts_S16384_S16384x1 := by
  dsimp only [Gen.V, Gen.hostOps0]; after_results; rfl

/-- The staged weights are W after a change of float format. -/
theorem V_w (c : Dev nD) : (V m c main_v2 : S8x512x512.Idx → F .bf16)
    = truncf .bf16 (m ((c : Thread nD τ).loc main_arg2)) bitsLt_bf16_f32 := by
  dsimp only [Gen.V, Gen.hostOps0]; after_results

/-- The staged biases are b cast to [8, 1, 512]. -/
theorem V_b (c : Dev nD) : (V m c main_v3 : S8x1x512.Idx → F .f32)
    = shapeCast S8x1x512 (m ((c : Thread nD τ).loc main_arg3)) shapeCasts_S8x512_S8x1x512 := by
  dsimp only [Gen.V, Gen.hostOps0]; after_results; rfl

/-! ## The blocks as entries of the inputs, on the extended reals -/

section Exact

variable (μ : (ℓ : Loc nD τ sig) → Buf (Elt Ideal) ℓ)

/-- The x block of point t at (p, d) is x at (row p of the tile, d): the change of format is the identity. -/
theorem xblk_val (c : Dev nD) (t : Fin cfg0.N) (p : Fin 2048) (d : Fin 512) :
    (iblk μ c 0 t : Vec Ideal S2048x512 .bf16) (ix2 p d) = μ ((c : Thread nD τ).loc main_arg0) (ix2 (rowOf t.val p) d) :=
  (xblk_apply μ c t p d).trans (congrFun (V_x μ c) (ix2 (rowOf t.val p) d))

/-- The condition column of point t at (p, 0) is the condition of row p of the tile. -/
theorem cblk_val (c : Dev nD) (t : Fin cfg0.N) (p : Fin 2048) (u : Fin 1) :
    (iblk μ c 1 t : Vec Ideal S2048x1 .i32) (ix2 p u) = μ ((c : Thread nD τ).loc main_arg1) (ix1 (rowOf t.val p)) :=
  (cblk_apply μ c t p u).trans ((congrFun (V_c μ c) (ix2 (rowOf t.val p) u)).trans
    (shapeCast_a_a1_apply _ shapeCasts_S16384_S16384x1 (rowOf t.val p) u))

/-- The weight block at (k, d, q) is W at (k, d, q). -/
theorem wblk_val (c : Dev nD) (t : Fin cfg0.N) (k : Fin 8) (d q : Fin 512) :
    (iblk μ c 2 t : Vec Ideal S8x512x512 .bf16) (ix3 k d q) = μ ((c : Thread nD τ).loc main_arg2) (ix3 k d q) :=
  (wblk_apply μ c t k d q).trans (congrFun (V_w μ c) (ix3 k d q))

/-- The bias block at (k, 0, q) is b at (k, q). -/
theorem bblk_val (c : Dev nD) (t : Fin cfg0.N) (k : Fin 8) (u : Fin 1) (q : Fin 512) :
    (iblk μ c 3 t : Vec Ideal S8x1x512 .f32) (ix3 k u q) = μ ((c : Thread nD τ).loc main_arg3) (ix2 k q) :=
  (bblk_apply μ c t k u q).trans ((congrFun (V_b μ c) (ix3 k u q)).trans
    (shapeCast_ab_a1b_apply _ shapeCasts_S8x512_S8x1x512 k u q))

end Exact

end Cert.KernelIdeal.Blocks

end
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.LibIdealBits.lean ====
import Idealize.ShloMosaic.PureOps.Ideal
import Idealize.ShloMosaic.PureOps.Ideal.Laws
import Idealize.ShloMosaic.Lib.ValueIdx

/-! # Small general facts at the exact instance

* A scalar float literal, and the integer-to-float conversions, read at the exact instance — each stated for a
  VARIABLE word, so that rewriting with them never makes Lean evaluate a particular float literal (comparing
  `Scalar.ofBits .f32 w` with `Ideal.ofBits .f32 w` by unfolding, at a literal `w`, can run out of memory).
* A comparison bit widened to 32 bits and converted as a SIGNED integer (a kernel's `(cond).astype(float32)`:
  `arith.extui` then `arith.sitofp`) is the bit converted as an UNSIGNED integer (the host's `convert` of an i1):
  both are the number 0 or 1.
* A sum over a rank-1 index set is the sum over its one coordinate. -/

noncomputable section

namespace Cert.LibIdealBits

open Idealize.ShloMosaic Idealize.ShloMosaic.ValueIdx

/-- A scalar literal at the exact instance is the instance's reading of its word. -/
theorem scalar_ofBits (φ : FTy) (b : BitVec φ.bits) : Scalar.ofBits (F := Ideal) φ b = Ideal.ofBits φ b := rfl

/-- A signed integer converted to a float at the exact instance is that integer. -/
theorem sitofp_ideal {w : Nat} (b : BitVec w) : FloatOps.sitofp (F := Ideal) .f32 b = (((b.toInt : ℝ)) : EReal) := rfl

/-- An unsigned integer converted to a float at the exact instance is that number. -/
theorem uitofp_ideal {w : Nat} (b : BitVec w) : FloatOps.uitofp (F := Ideal) .f32 b = (((b.toNat : ℝ)) : EReal) := rfl

/-- A bit widened to 32 bits and read as a signed integer is the bit read as a natural number: both are 0 or 1. -/
theorem bit_signed_eq_unsigned (b : BitVec 1) : (((b.setWidth 32).toInt : ℝ) : EReal) = (((b.toNat : ℝ)) : EReal) := by
  have h : (b.setWidth 32).toInt = (b.toNat : ℤ) := by
    rcases BitVec.eq_zero_or_eq_one b with h | h <;> subst h <;> decide
  rw [h, Int.cast_natCast]

/-- So widening a bit and converting it signed is converting it unsigned. -/
theorem sitofp_extui_bit (b : BitVec 1) :
    FloatOps.sitofp (F := Ideal) .f32 (b.setWidth 32) = FloatOps.uitofp (F := Ideal) .f32 b := by
  rw [sitofp_ideal, uitofp_ideal, bit_signed_eq_unsigned]

/-- A rank-1 index set is its one coordinate's range … -/
def idxEquiv1 {n : Nat} : (⟨1, ![n]⟩ : Shape).Idx ≃ Fin n where
  toFun i := i 0
  invFun k := ix1 k
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

end Cert.LibIdealBits

end
-- ==== Proof.KernelPayload.lean ====
/-
  One grid point's arithmetic at an entry, on the extended reals.

  At the point of condition c the body forms, from the row tile's block xb of x and the tile's condition column cb,
  the masked block xb (p, d) · [cb p = c] (the comparison bit widened and converted as a signed integer: the number
  0 or 1, the same as the bit converted unsigned; the change of float format is the identity), multiplies it by the
  condition's weight matrix from a zero accumulator (the sum over the contracted feature d), adds the condition's
  bias row to every row, clamps at zero, and adds the result to the accumulator's contents. So the new accumulator
  at (p, q) is the old one there plus max ((∑ d, (xb (p, d) · [cb p = c]) · W (d, q)) + b q) 0.
-/
import proofs.«158680_j53919019434508_2_alg».proof.Proof.Gen.KernelIdeal.Skeleton
import proofs.«158680_j53919019434508_2_alg».proof.Proof.Spec
import proofs.«158680_j53919019434508_2_alg».proof.Proof.LibColumns
import proofs.«158680_j53919019434508_2_alg».proof.Proof.LibMatmul
import proofs.«158680_j53919019434508_2_alg».proof.Proof.LibIdealBits
import Idealize.ShloMosaic.Lib.ValueIdx
import Idealize.ShloMosaic.Lib.ValueLayout
import Idealize.ShloMosaic.Lib.Pipeline.Value

noncomputable section

open scoped BigOperators

namespace Cert.KernelIdeal.Payload

open Cert.KernelIdeal Cert.KernelIdeal.Gen Idealize.ShloMosaic Idealize.ShloMosaic.ValueIdx

/-- The masked block at (p, d): the block's entry times the indicator of "row p has condition word c". -/
theorem masked_apply (c : BitVec 32) (xb : FVec Ideal S2048x512 .bf16) (cb : IVec S2048x1 32)
    (h1 : 1 < 32) (h2 : FTy.bits .bf16 < FTy.bits .f32) (h3 : S2048x1.Broadcasts S2048x512) (p : Fin 2048) (d : Fin 512) :
    mulf xb (broadcastTo S2048x512 (truncf .bf16 (sitofp (F := Ideal) .f32 (extui 32 (cmpi .eq cb (broadcast S2048x1 c)) h1)) h2) h3) (ix2 p d)
      = xb (ix2 p d) * FloatOps.uitofp (F := Ideal) .f32 (IntOp.cmpi .eq (cb (ix2 p (0 : Fin 1))) c) := by
  rw [mulf_apply, broadcastTo_a1_ab_apply]
  show xb (ix2 p d) * FloatOps.sitofp (F := Ideal) .f32 ((IntOp.cmpi .eq (cb (ix2 p (0 : Fin 1))) c).setWidth 32) = _
  rw [Cert.LibIdealBits.sitofp_extui_bit]

/-- The condition's bias row laid against every row of the tile, at (p, q). -/
theorem bias_apply (bb : FVec Ideal S1x1x512 .f32) (h1 : S1x1x512.ShapeCasts S1x512) (h2 : S1x512.Broadcasts S2048x512)
    (p : Fin 2048) (q : Fin 512) :
    broadcastTo S2048x512 (shapeCast S1x512 bb h1) h2 (ix2 p q) = bb (ix3 (0 : Fin 1) (0 : Fin 1) q) := by
  rw [broadcastTo_1b_ab_apply, shapeCast_1ab_ab_apply]

/-- The point's new accumulator contents at (p, q). -/
theorem pay2_apply (i : grid0.Coords) (xb : Vec Ideal S2048x512 .bf16) (cb : Vec Ideal S2048x1 .i32)
    (wb : Vec Ideal S1x512x512 .bf16) (bb : Vec Ideal S1x1x512 .f32) (acc : Vec Ideal S2048x512 .f32)
    (p : Fin 2048) (q : Fin 512) :
    k0_pay2 (F := Ideal) i xb cb wb bb acc (ix2 p q)
      = acc (ix2 p q) + max ((∑ d : Fin 512, (xb (ix2 p d) * Cert.CondSum.ind (cb (ix2 p (0 : Fin 1))) (i 1).val)
          * wb (ix3 (0 : Fin 1) d q)) + bb (ix3 (0 : Fin 1) (0 : Fin 1) q)) (Ideal.ofBits .f32 0x00000000#32) := by
  unfold k0_pay2
  simp only [shapeCast_self]
  rw [addf_apply, maximumf_apply, addf_apply, broadcast_apply, bias_apply]
  show acc (ix2 p q) + max (FloatOps.matmul dot_S2048x512_S512x512_S2048x512_1_0_0_1_n_n none _ _
    (constant S2048x512 .f32 0x00000000#32) (ix2 p q) + _) _ = _
  rw [matmul_zero_ix2 dot_S2048x512_S512x512_S2048x512_1_0_0_1_n_n rfl rfl rfl rfl rfl rfl]
  simp only [masked_apply, shapeCast_1ab_ab_apply, Cert.CondSum.ind]
  rfl

end Cert.KernelIdeal.Payload

end
-- ==== Proof.KernelValue.lean ====
/-
  The kernel's result array is the specification.

  A row tile's eight grid points run one after the other. The first sets the accumulator to the zero block and adds
  its condition's term; each later one adds its own condition's term to what the point before left; the last also
  copies the accumulator into the output block, which is then written back to the tile's rows of the result. So the
  accumulator after the tile's point number j holds the starting zero plus the terms of conditions 0 … j, and the
  block written back holds the zero plus all eight terms: the specification at the tile's rows. The eight tiles'
  blocks cover the result array.
-/
import proofs.«158680_j53919019434508_2_alg».proof.Proof.Gen.KernelIdeal.Value
import proofs.«158680_j53919019434508_2_alg».proof.Proof.KernelBlocks
import proofs.«158680_j53919019434508_2_alg».proof.Proof.KernelPayload
import proofs.«158680_j53919019434508_2_alg».proof.Proof.Spec

noncomputable section

open scoped BigOperators

namespace Cert.KernelIdeal.CondValue

open Cert.KernelIdeal Cert.KernelIdeal.Gen Cert.KernelIdeal.Value Cert.KernelIdeal.Pieces Cert.KernelIdeal.Blocks
  Cert.KernelIdeal.Payload Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The four inputs on core c. -/
abbrev inX (c : Dev nD) : S16384x512.Idx → EReal := m ((c : Thread nD τ).loc main_arg0)
abbrev inC (c : Dev nD) : S16384.Idx → BitVec 32 := m ((c : Thread nD τ).loc main_arg1)
abbrev inW (c : Dev nD) : S8x512x512.Idx → EReal := m ((c : Thread nD τ).loc main_arg2)
abbrev inB (c : Dev nD) : S8x512.Idx → EReal := m ((c : Thread nD τ).loc main_arg3)

/-- What point n adds to the accumulator at (p, q): its condition's term at row p of its tile. -/
def addend (c : Dev nD) (n : ℕ) : S2048x512.Idx → EReal := fun y =>
  Cert.CondSum.term (inX m c) (inC m c) (inW m c) (inB m c) (rowOf n (y 0)) (condOf n) (y 1)

/-- The zero block the first point of a tile stores. -/
theorem zero_block : (k0_pay1 (F := Ideal)) = fun _ => Ideal.ofBits .f32 0x00000000#32 := by
  unfold k0_pay1
  simp only [shapeCast_self]
  rfl

/-- One point's arithmetic over any blocks: the slabs the body loads are the matrix and the row of condition k. -/
theorem step_blocks (i : grid0.Coords) (k : Fin 8) (hk : (i 1).val = k.val) (xb : Vec Ideal S2048x512 .bf16)
    (cb : Vec Ideal S2048x1 .i32) (wb : Vec Ideal S8x512x512 .bf16) (bb : Vec Ideal S8x1x512 .f32)
    (acc : Vec Ideal S2048x512 .f32) (p : Fin 2048) (q : Fin 512) :
    k0_pay2 (F := Ideal) i xb cb (wLoad i wb) (bLoad i bb) acc (ix2 p q)
      = acc (ix2 p q) + max ((∑ d : Fin 512, (xb (ix2 p d) * Cert.CondSum.ind (cb (ix2 p (0 : Fin 1))) k.val)
          * wb (ix3 k d q)) + bb (ix3 k (0 : Fin 1) q)) (Ideal.ofBits .f32 0x00000000#32) := by
  rw [pay2_apply, hk]
  simp only [wLoad_apply i wb k hk, bLoad_apply i bb k hk]

/-- Point t's arithmetic over its own blocks: the accumulator gains the point's addend. -/
theorem step_apply (c : Dev nD) (t : Fin cfg0.N) (acc : Vec Ideal S2048x512 .f32) (y : S2048x512.Idx) :
    k0_pay2 (F := Ideal) (grid0.coords t) (iblk m c 0 t) (iblk m c 1 t) (wLoad (grid0.coords t) (iblk m c 2 t))
      (bLoad (grid0.coords t) (iblk m c 3 t)) acc y = acc y + addend m c t.val y := by
  obtain ⟨p, q, rfl⟩ : ∃ (p : Fin 2048) (q : Fin 512), y = ix2 p q := ⟨y 0, y 1, eq_ix2 y⟩
  refine (step_blocks (grid0.coords t) (condOf t.val) (coord_cond t) (iblk m c 0 t) (iblk m c 1 t) (iblk m c 2 t)
    (iblk m c 3 t) acc p q).trans ?_
  simp only [xblk_val, cblk_val, wblk_val, bblk_val]
  rfl

/-- A tile's first point leaves the zero block plus its addend, whatever the accumulator held. -/
theorem first_point (c : Dev nD) (n : ℕ) (hb : n < cfg0.N) (h0 : n % 8 = 0) (acc : Vec Ideal S2048x512 .f32)
    (y : S2048x512.Idx) :
    scAt0_0 m c n hb acc y = Ideal.ofBits .f32 0x00000000#32 + addend m c n y := by
  have h1 : ¬n % 8 = 7 := by omega
  unfold scAt0_0
  rw [dif_pos h0, dif_neg h1]
  refine (congrFun (acc_A (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _)
    ((hcond0_0 (⟨n, hb⟩ : Fin cfg0.N)).mpr h0) (fun h => h1 ((hcond0_1 (⟨n, hb⟩ : Fin cfg0.N)).mp h))
    (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))) y).trans ?_
  refine (step_apply m c ⟨n, hb⟩ (k0_pay1 (F := Ideal)) y).trans ?_
  rw [zero_block]

/-- A later point of a tile adds its addend to what the point before left. -/
theorem later_point (c : Dev nD) (n : ℕ) (hb : n < cfg0.N) (h0 : ¬n % 8 = 0) (acc : Vec Ideal S2048x512 .f32)
    (y : S2048x512.Idx) :
    scAt0_0 m c n hb acc y = acc y + addend m c n y := by
  unfold scAt0_0
  rw [dif_neg h0]
  by_cases h1 : n % 8 = 7
  · rw [dif_pos h1]
    exact (congrFun (acc_C (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _)
      (fun h => h0 ((hcond0_0 (⟨n, hb⟩ : Fin cfg0.N)).mp h)) ((hcond0_1 (⟨n, hb⟩ : Fin cfg0.N)).mpr h1)
      (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc) y).trans (step_apply m c ⟨n, hb⟩ acc y)
  · rw [dif_neg h1]
    exact (congrFun (acc_B (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _)
      (fun h => h0 ((hcond0_0 (⟨n, hb⟩ : Fin cfg0.N)).mp h)) (fun h => h1 ((hcond0_1 (⟨n, hb⟩ : Fin cfg0.N)).mp h))
      (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc) y).trans (step_apply m c ⟨n, hb⟩ acc y)

/-- The accumulator after point t: the zero plus the addends of the tile's points up to t. -/
theorem acc_after (c : Dev nD) (t : Fin cfg0.N) (y : S2048x512.Idx) :
    (outsAt0 m c t.val t.isLt).2 y
      = Ideal.ofBits .f32 0x00000000#32 + ∑ s ∈ Finset.range (t.val % 8 + 1), addend m c (8 * (t.val / 8) + s) y := by
  rw [soutsAt0_0_eq]
  exact Pipeline.accAt_add_apply _ _ (fun _ => Ideal.ofBits .f32 0x00000000#32) (addend m c) (8 * (t.val / 8)) 7
    (fun h i => first_point m c _ h (Nat.mul_mod_right 8 _) _ i)
    (fun n h acc i h1 h2 => later_point m c n h (by omega) acc i)
    (t.val % 8) (by have := Nat.mod_lt t.val (show 0 < 8 by decide); omega) _ y

/-- At a tile's last point the output block receives what the accumulator ends with. -/
theorem out_eq_acc (c : Dev nD) (t : Fin cfg0.N) (h0 : ¬t.val % 8 = 0) (h7 : t.val % 8 = 7) :
    (outsAt0 m c t.val t.isLt).1 = (outsAt0 m c t.val t.isLt).2 := by
  have e1 := congrArg Prod.fst (outsAt0_C m c t h0 h7)
  have e2 := congrArg Prod.snd (outsAt0_C m c t h0 h7)
  dsimp only at e1 e2
  rw [e1, e2]
  exact (out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h7)
      (iblk m c 0 t) (iblk m c 1 t) (iblk m c 2 t) (iblk m c 3 t) (outsAt0 m c (t.val - 1) (Nat.lt_of_le_of_lt (Nat.sub_le _ _) t.isLt)).2).trans
    (acc_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h7)
      (iblk m c 0 t) (iblk m c 1 t) (iblk m c 2 t) (iblk m c 3 t) (outsAt0 m c (t.val - 1) (Nat.lt_of_le_of_lt (Nat.sub_le _ _) t.isLt)).2).symm

/-- The eight addends of a tile, summed, are the specification's sum over the conditions at the tile's row. -/
theorem tile_sum (c : Dev nD) (n : ℕ) (p : Fin 2048) (q : Fin 512) :
    ∑ s ∈ Finset.range 8, addend m c (8 * (n / 8) + s) (ix2 p q)
      = ∑ k : Fin 8, Cert.CondSum.term (inX m c) (inC m c) (inW m c) (inB m c) (rowOf n p) k q := by
  rw [Finset.sum_range]
  refine Finset.sum_congr rfl fun k _ => ?_
  have hk : k.val < 8 := k.isLt
  have hr : rowOf (8 * (n / 8) + k.val) p = rowOf n p := Fin.ext (by
    show (8 * (n / 8) + k.val) / 8 % 8 * 2048 + p.val = n / 8 % 8 * 2048 + p.val; omega)
  have hc : condOf (8 * (n / 8) + k.val) = k := Fin.ext (by show (8 * (n / 8) + k.val) % 8 = k.val; omega)
  show Cert.CondSum.term _ _ _ _ (rowOf (8 * (n / 8) + k.val) p) (condOf (8 * (n / 8) + k.val)) q = _
  rw [hr, hc]

/-- The result the kernel computes on core c: the specification of the core's inputs. -/
abbrev result (c : Dev nD) : S16384x512.Idx → EReal := Cert.CondSum.G (inX m c) (inC m c) (inW m c) (inB m c)

/-- What a tile's last point writes back is the tile's block of the specification. -/
theorem flushed_eq (c : Dev nD) (t : Fin cfg0.N) (hf : (cfg0.win 4).flush t = true) :
    (dats m 0 c).flushed 4 t = ((cfg0.win 4).blk t).view.read (Elt Ideal) (result m c) := by
  have h7 : t.val % 8 = 7 := (flush0_4 t).mp hf
  have h0 : ¬t.val % 8 = 0 := by omega
  rw [flushed4 m c t, out_eq_acc m c t h0 h7]
  refine funext fun (y : S2048x512.Idx) => ?_
  obtain ⟨p, q, rfl⟩ : ∃ (p : Fin 2048) (q : Fin 512), y = ix2 p q := ⟨y 0, y 1, eq_ix2 y⟩
  rw [View.read_apply]
  show (outsAt0 m c t.val t.isLt).2 (ix2 p q) = result m c (((cfg0.win 4).blk t).view.emb (ix2 p q))
  rw [acc_after m c t (ix2 p q), oblk_emb t p q, h7, tile_sum m c t.val p q]
  rfl

/-- An index of the result is in point t's block iff each coordinate is in the block's range on its axis. -/
theorem mem_blk (t : Fin cfg0.N) (i : S16384x512.Idx) :
    i ∈ ((cfg0.win 4).blk t).view.set ↔ ∀ a : Fin 2, win0_4.index t a * S2048x512.size a ≤ (i a).val
      ∧ (i a).val < win0_4.index t a * S2048x512.size a + S2048x512.size a := by
  show i ∈ ((View.whole main_v4).slice (win0_4.rect t)).set ↔ _
  rw [View.set_slice_whole, Rect.mem_set_unit]
  exact Iff.rfl

/-- Every entry of the result lies in the block some tile's last point writes back: row r is in tile r / 2048. -/
theorem cover (i : S16384x512.Idx) :
    ∃ t : Fin cfg0.N, (cfg0.win 4).flush t = true ∧ i ∈ ((cfg0.win 4).blk t).view.set := by
  have hN : cfg0.N = 64 := N_0
  have hi0 : (i 0).val < 16384 := (i 0).isLt
  have hi1 : (i 1).val < 512 := (i 1).isLt
  obtain ⟨t, ht⟩ : ∃ t : Fin cfg0.N, t.val = 8 * ((i 0).val / 2048) + 7 := ⟨⟨_, by rw [hN]; omega⟩, rfl⟩
  refine ⟨t, (flush0_4 t).mpr (by omega), ?_⟩
  rw [mem_blk]
  obtain ⟨e0, e1⟩ := index_o t
  intro a
  match a with
  | ⟨0, _⟩ =>
    show win0_4.index t 0 * 2048 ≤ (i 0).val ∧ (i 0).val < win0_4.index t 0 * 2048 + 2048
    rw [e0]; omega
  | ⟨1, _⟩ =>
    show win0_4.index t 1 * 512 ≤ (i 1).val ∧ (i 1).val < win0_4.index t 1 * 512 + 512
    rw [e1]; omega

/-- So the result array ends at the specification of the inputs. -/
theorem final (c : Dev nD) : (dats m 0 c).arrAt 4 cfg0.N = result m c :=
  (dats m 0 c).arrAt_eq_of_cover 4 (result m c) (fun t hf => flushed_eq m c t hf) (cover)

/-- The kernel's run, read: the result array at the specification, the four inputs unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.CondValue

end
-- ==== Proof.lean ====
/-
  The certificate's five claims.

  The kernel sums, over the 8 conditions, the clamped affine image of the rows masked to the condition; it does so
  tile by tile (2048 rows), a tile's eight conditions at eight consecutive grid points that accumulate into one
  block, written back after the eighth. The reference forms all eight masked copies of the whole matrix, one batched
  product, and sums over the condition axis. On the extended reals both are, at row r and output feature e,

      0 + ∑ c, max ((∑ d, (x r d · [cond r = c]) · W c d e) + b c e) 0 ,

  the same products in the same order inside each term, the terms added in the order of the conditions (the sum of
  extended reals does not depend on it). The mask is the 0/1 number of a comparison bit on both sides; changes of
  float format are the identity; nothing here needs the inputs to be finite.

  The three frames are the generated frame runs (the reference's is its generated run with the result dropped); the
  kernel's idealization rewrote nothing, so there is nothing to preserve.
-/
import proofs.«158680_j53919019434508_2_alg».proof.Defs
import proofs.«158680_j53919019434508_2_alg».proof.Proof.Gen.Kernel
import proofs.«158680_j53919019434508_2_alg».proof.Proof.Gen.Kernel.Frame
import proofs.«158680_j53919019434508_2_alg».proof.Proof.Gen.KernelIdeal
import proofs.«158680_j53919019434508_2_alg».proof.Proof.Gen.KernelIdeal.Frame
import proofs.«158680_j53919019434508_2_alg».proof.Proof.Gen.KernelIdeal.Value
import proofs.«158680_j53919019434508_2_alg».proof.Proof.Gen.ReferenceIdeal
import proofs.«158680_j53919019434508_2_alg».proof.Proof.Gen.ReferenceIdeal.Run
import proofs.«158680_j53919019434508_2_alg».proof.Proof.Gen.ReferenceIdeal.Read
import proofs.«158680_j53919019434508_2_alg».proof.Proof.Gen.Pre_finite_inputs
import proofs.«158680_j53919019434508_2_alg».proof.Proof.RefValue
import proofs.«158680_j53919019434508_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the specification of the (agreeing) inputs. -/
theorem algebraic : Cert.algebraic_KernelIdeal_ReferenceIdeal := by
  intro m ρ m' ρ' _ hagree
  refine ⟨fun c => Cert.KernelIdeal.CondValue.result m c, Cert.KernelIdeal.CondValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.result_eq, (hagree c).1, (hagree c).2.1,
    (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
